-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S1250000 32) (main_arg2 : IVec S1250000 32) (main_arg3 : FVec F S64x64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 30
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S_, .f32⟩
  | .hbm, ⟨16, _⟩ => ⟨S100000x64, .f32⟩
  | .hbm, ⟨17, _⟩ => ⟨S1250000x1, .i32⟩
  | .hbm, ⟨18, _⟩ => ⟨S100000x64, .f32⟩
  | .hbm, ⟨19, _⟩ => ⟨S_, .f32⟩
  | .hbm, ⟨20, _⟩ => ⟨S1250000, .f32⟩
  | .hbm, ⟨21, _⟩ => ⟨S_, .f32⟩
  | .hbm, ⟨22, _⟩ => ⟨S100000, .f32⟩
  | .hbm, ⟨23, _⟩ => ⟨S1250000x1, .i32⟩
  | .hbm, ⟨24, _⟩ => ⟨S100000, .f32⟩
  | .hbm, ⟨25, _⟩ => ⟨S100000x1, .f32⟩
  | .hbm, ⟨26, _⟩ => ⟨S64x64, .f32⟩
  | .hbm, ⟨27, _⟩ => ⟨S64x64, .f32⟩
  | .hbm, ⟨28, _⟩ => ⟨S1x64, .f32⟩
  | .hbm, ⟨29, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  transposes_S64x64_S64x64_1_0 : S64x64.Transposes [1, 0] S64x64
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 39
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000, .i32⟩
  | .hbm, ⟨2, _⟩ => ⟨S1250000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S_, .f32⟩
  | .hbm, ⟨16, _⟩ => ⟨S100000x64, .f32⟩
  | .hbm, ⟨17, _⟩ => ⟨S1250000x1, .i32⟩
  | .hbm, ⟨18, _⟩ => ⟨S100000x64, .f32⟩
  | .hbm, ⟨19, _⟩ => ⟨S_, .f32⟩
  | .hbm, ⟨20, _⟩ => ⟨S1250000, .f32⟩
  | .hbm, ⟨21, _⟩ => ⟨S_, .f32⟩
  | .hbm, ⟨22, _⟩ => ⟨S100000, .f32⟩
  | .hbm, ⟨23, _⟩ => ⟨S1250000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S64x64, .f32⟩
  | .hbm, ⟨32, _⟩ => ⟨S100000x64, .f32⟩
  | .hbm, ⟨33, _⟩ => ⟨S64x64, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibColumn.lean ====
/-
  Keepdims columns.

  A vector of `a` entries viewed as a column `[a, 1]` holds entry `i` at `(i, 0)`: the row-major position of `(i, u)` in
  `[a, 1]` is `i · 1 + u = i`.
-/
import Idealize.ShloMosaic.Lib.Pipeline.Value
import Idealize.ShloMosaic.Lib.ValueIdx

namespace Idealize.ShloMosaic.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.LibColumn
-- ==== Proof.RegionEntry.lean ====
/-
  What the kernel's region finds in the arrays the host operations before it wrote.

  Before the region the program gathers the feature row of every edge's source, adds those rows up per destination node
  (`neighSum`), counts each node's incoming edges by adding up ones per destination (`inDegree`), views the count as a
  column, transposes the two weight matrices and views the bias as a row.  Here each of these arrays is read back as a term
  of the program's arguments, and the three re-laid ones are read at an index: the column at `(r, 0)` is the count of node
  `r`, a transposed matrix at `(k, q)` is the matrix at `(q, k)`, the row at `(0, q)` is the bias at `q`.
  The gather and the two sums over edges are never opened: the reference applies the same operations to the same
  arguments, so they are carried as they are.
-/
import proofs.«129284_j75101798138094_2_alg».proof.Proof.Gen.KernelIdeal.Frame
import proofs.«129284_j75101798138094_2_alg».proof.Proof.LibColumn
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

open Idealize.ShloMosaic Idealize.ShloMosaic.TcCoe Idealize.SL.Sem Idealize.ShloMosaic.ValueIdx

namespace Cert.KernelIdeal.Entry

open Cert.KernelIdeal Cert.KernelIdeal.Gen

/-- Row `p`: the sum, over the edges that end at node `p`, of the feature row of the edge's source (a negative source
    index counted from the end, as jnp reads it). -/
def neighSum (x0 : S100000x64.Idx → EReal) (x1 x2 : S1250000.Idx → BitVec 32) : S100000x64.Idx → EReal :=
  Host.scatterAdd (F := Ideal) scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 x2)
    (Host.gather gather_S100000x64_S1250000x1_S1250000x64_1_0_n_n_0_1_164 x0
      (broadcastInDim S1250000x1 ![0] bcast_S1250000_S1250000x1_0
        (select (cmpi .slt x1 (broadcastInDim S1250000 ![] bcast_S_S1250000 (constantI S_ 32 0#32)))
          (addi x1 (broadcastInDim S1250000 ![] bcast_S_S1250000 (constantI S_ 32 100000#32))) x1)))

/-- Entry `p`: the number of edges that end at node `p`, as a sum of ones. -/
def inDegree (x2 : S1250000.Idx → BitVec 32) : S100000.Idx → EReal :=
  Host.scatterAdd (F := Ideal) scatter_S100000_S1250000x1_S1250000_n_0_0_1
    (broadcastInDim S100000 ![] bcast_S_S100000 (constant (F := Ideal) S_ .f32 0x00000000#32))
    (broadcastInDim S1250000x1 ![0] bcast_S1250000_S1250000x1_0 x2)
    (broadcastInDim S1250000 ![] bcast_S_S1250000 (constant (F := Ideal) S_ .f32 0x3F800000#32))

variable (m : (ℓ : Loc nD τ sig) → Buf (Elt Ideal) ℓ)

/-- The second operand of the region is the summed neighbour features of the arguments. -/
theorem V_neighSum (c : Dev nD) :
    (V m c main_v9 : S100000x64.Idx → EReal)
      = neighSum (m ((c : Thread nD τ).loc main_arg0)) (m ((c : Thread nD τ).loc main_arg1)) (m ((c : Thread nD τ).loc main_arg2)) := by
  dsimp only [Gen.V, Gen.hostOps0]
  after_results
  rfl

/-- The third operand is the in-degree viewed as a column. -/
theorem V_degColumn (c : Dev nD) :
    (V m c main_v14 : S100000x1.Idx → EReal)
      = shapeCast S100000x1 (inDegree (m ((c : Thread nD τ).loc main_arg2))) shapeCasts_S100000_S100000x1 := by
  dsimp only [Gen.V, Gen.hostOps0]
  after_results
  rfl

/-- The fourth operand is the first weight matrix transposed. -/
theorem V_selfT (c : Dev nD) :
    (V m c main_v15 : S64x64.Idx → EReal)
      = transpose S64x64 [1, 0] (m ((c : Thread nD τ).loc main_arg3) : S64x64.Idx → EReal) transposes_S64x64_S64x64_1_0 := by
  dsimp only [Gen.V, Gen.hostOps0]
  after_results

/-- The fifth operand is the second weight matrix transposed. -/
theorem V_neighT (c : Dev nD) :
    (V m c main_v16 : S64x64.Idx → EReal)
      = transpose S64x64 [1, 0] (m ((c : Thread nD τ).loc main_arg4) : S64x64.Idx → EReal) transposes_S64x64_S64x64_1_0 := by
  dsimp only [Gen.V, Gen.hostOps0]
  after_results

/-- The sixth operand is the bias viewed as a row. -/
theorem V_biasRow (c : Dev nD) :
    (V m c main_v17 : S1x64.Idx → EReal)
      = shapeCast S1x64 (m ((c : Thread nD τ).loc main_arg5) : S64.Idx → EReal) shapeCasts_S64_S1x64 := by
  dsimp only [Gen.V, Gen.hostOps0]
  after_results
  rfl

/-- The degree column at `(r, u)` is the in-degree of node `r`. -/
theorem V_degColumn_apply (c : Dev nD) (r : Fin 100000) (u : Fin 1) :
    (V m c main_v14 : S100000x1.Idx → EReal) (ix2 r u) = inDegree (m ((c : Thread nD τ).loc main_arg2)) (ix1 r) := by
  rw [V_degColumn]
  exact LibColumn.shapeCast_a_a1_apply _ _ r u

/-- The transposed first weight matrix at `(k, q)` is the matrix at `(q, k)`. -/
theorem V_selfT_apply (c : Dev nD) (k q : Fin 64) :
    (V m c main_v15 : S64x64.Idx → EReal) (ix2 k q) = (m ((c : Thread nD τ).loc main_arg3) : S64x64.Idx → EReal) (ix2 q k) := by
  rw [V_selfT]
  exact transpose_ix2_apply _ _ k q

/-- The transposed second weight matrix at `(k, q)` is the matrix at `(q, k)`. -/
theorem V_neighT_apply (c : Dev nD) (k q : Fin 64) :
    (V m c main_v16 : S64x64.Idx → EReal) (ix2 k q) = (m ((c : Thread nD τ).loc main_arg4) : S64x64.Idx → EReal) (ix2 q k) := by
  rw [V_neighT]
  exact transpose_ix2_apply _ _ k q

/-- The bias row at `(u, q)` is the bias at `q`. -/
theorem V_biasRow_apply (c : Dev nD) (u : Fin 1) (q : Fin 64) :
    (V m c main_v17 : S1x64.Idx → EReal) (ix2 u q) = (m ((c : Thread nD τ).loc main_arg5) : S64.Idx → EReal) (ix1 q) := by
  rw [V_biasRow]
  exact shapeCast_a_1a_apply _ _ u q

/-! ## The same, with each array named as the region's window names it

The region knows each operand as window `w`'s array; that array is the host value above. -/

/-- Window 1's array is the summed neighbour features. -/
theorem W_neighSum (c : Dev nD) :
    (V m c (Pipeline.arrRef spec0 1) : S100000x64.Idx → EReal)
      = neighSum (m ((c : Thread nD τ).loc main_arg0)) (m ((c : Thread nD τ).loc main_arg1)) (m ((c : Thread nD τ).loc main_arg2)) :=
  (show (V m c (Pipeline.arrRef spec0 1) : S100000x64.Idx → EReal) = V m c main_v9 from rfl).trans (V_neighSum m c)

/-- Window 2's array at `(r, u)` is the in-degree of node `r`. -/
theorem W_degColumn_apply (c : Dev nD) (r : Fin 100000) (u : Fin 1) :
    (V m c (Pipeline.arrRef spec0 2) : S100000x1.Idx → EReal) (ix2 r u) = inDegree (m ((c : Thread nD τ).loc main_arg2)) (ix1 r) :=
  (congrFun (show (V m c (Pipeline.arrRef spec0 2) : S100000x1.Idx → EReal) = V m c main_v14 from rfl) (ix2 r u)).trans (V_degColumn_apply m c r u)

/-- Window 3's array at `(k, q)` is the first weight matrix at `(q, k)`. -/
theorem W_selfT_apply (c : Dev nD) (k q : Fin 64) :
    (V m c (Pipeline.arrRef spec0 3) : S64x64.Idx → EReal) (ix2 k q) = (m ((c : Thread nD τ).loc main_arg3) : S64x64.Idx → EReal) (ix2 q k) :=
  (congrFun (show (V m c (Pipeline.arrRef spec0 3) : S64x64.Idx → EReal) = V m c main_v15 from rfl) (ix2 k q)).trans (V_selfT_apply m c k q)

/-- Window 4's array at `(k, q)` is the second weight matrix at `(q, k)`. -/
theorem W_neighT_apply (c : Dev nD) (k q : Fin 64) :
    (V m c (Pipeline.arrRef spec0 4) : S64x64.Idx → EReal) (ix2 k q) = (m ((c : Thread nD τ).loc main_arg4) : S64x64.Idx → EReal) (ix2 q k) :=
  (congrFun (show (V m c (Pipeline.arrRef spec0 4) : S64x64.Idx → EReal) = V m c main_v16 from rfl) (ix2 k q)).trans (V_neighT_apply m c k q)

/-- Window 5's array at `(u, q)` is the bias at `q`. -/
theorem W_biasRow_apply (c : Dev nD) (u : Fin 1) (q : Fin 64) :
    (V m c (Pipeline.arrRef spec0 5) : S1x64.Idx → EReal) (ix2 u q) = (m ((c : Thread nD τ).loc main_arg5) : S64.Idx → EReal) (ix1 q) :=
  (congrFun (show (V m c (Pipeline.arrRef spec0 5) : S1x64.Idx → EReal) = V m c main_v17 from rfl) (ix2 u q)).trans (V_biasRow_apply m c u q)

/-- Window 0's array is the features as launched. -/
theorem W_feat (c : Dev nD) :
    (V m c (Pipeline.arrRef spec0 0) : S100000x64.Idx → EReal) = m ((c : Thread nD τ).loc main_arg0) :=
  (show (V m c (Pipeline.arrRef spec0 0) : S100000x64.Idx → EReal) = V m c main_arg0 from rfl).trans (V_main_arg0 m c)

end Cert.KernelIdeal.Entry

end
-- ==== Proof.BlockReads.lean ====
/-
  Each window's block, at a grid point, as entries of the array it is cut from.

  The grid has 20 points; point `t` works on nodes `5000·t … 5000·t + 4999`.  An entry `(y₀, y₁)` of a window's block at
  point `t` is the array's entry `(b₀·s₀ + y₀, b₁·s₁ + y₁)`, `b` the window's block index at `t` and `s` the block's
  extents.  The features, the summed neighbour features and the degree column are blocked by rows with `b = (t, 0)`; the
  two transposed weight matrices and the bias row have the one block `(0, 0)`.  Composed with what the region finds in the
  host-written arrays, every block entry the body reads is an entry of an argument, of the summed neighbour features or of
  the in-degrees.
-/
import proofs.«129284_j75101798138094_2_alg».proof.Proof.Gen.KernelIdeal.Frame
import proofs.«129284_j75101798138094_2_alg».proof.Proof.RegionEntry
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Entry

variable (m : (ℓ : Loc nD τ sig) → Buf (Elt Ideal) ℓ)

/-- The block index of every window at every point: the three row-blocked inputs and the output are at block row `t`,
    the weights and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! A window's block of ANY array contents `f`, read at a block entry, is `f` at the array entry the block's rectangle sends
    it to: reading through a view composes the contents with the view's embedding. -/
theorem read_blk0 (t : Fin cfg0.N) (f : S100000x64.Idx → EReal) (y : S5000x64.Idx) :
    ((cfg0.win 0).blk t).view.read (Elt Ideal) f y = f (((cfg0.win 0).blk t).view.emb y) := rfl
theorem read_blk1 (t : Fin cfg0.N) (f : S100000x64.Idx → EReal) (y : S5000x64.Idx) :
    ((cfg0.win 1).blk t).view.read (Elt Ideal) f y = f (((cfg0.win 1).blk t).view.emb y) := rfl
theorem read_blk2 (t : Fin cfg0.N) (f : S100000x1.Idx → EReal) (y : S5000x1.Idx) :
    ((cfg0.win 2).blk t).view.read (Elt Ideal) f y = f (((cfg0.win 2).blk t).view.emb y) := rfl
theorem read_blk3 (t : Fin cfg0.N) (f : S64x64.Idx → EReal) (y : S64x64.Idx) :
    ((cfg0.win 3).blk t).view.read (Elt Ideal) f y = f (((cfg0.win 3).blk t).view.emb y) := rfl
theorem read_blk4 (t : Fin cfg0.N) (f : S64x64.Idx → EReal) (y : S64x64.Idx) :
    ((cfg0.win 4).blk t).view.read (Elt Ideal) f y = f (((cfg0.win 4).blk t).view.emb y) := rfl
theorem read_blk5 (t : Fin cfg0.N) (f : S1x64.Idx → EReal) (y : S1x64.Idx) :
    ((cfg0.win 5).blk t).view.read (Elt Ideal) f y = f (((cfg0.win 5).blk t).view.emb y) := rfl

/-- The feature block at point `t`, at `(p, k)`, is the features of node `5000·t + p`. -/
theorem feat_block (c : Dev nD) (t : Fin cfg0.N) (p : Fin 5000) (k : Fin 64) (n : Fin 100000) (hn : n.val = t.val * 5000 + p.val) :
    (iblk m c 0 t : Vec Ideal S5000x64 .f32) (ix2 p k) = ((m ((c : Thread nD τ).loc main_arg0)) : S100000x64.Idx → EReal) (ix2 n k) := by
  obtain ⟨e0, e1, -⟩ := idx_facts t
  have hemb : ((cfg0.win 0).blk t).view.emb (ix2 p k) = ix2 n k := by
    funext a; apply Fin.ext
    match a with
    | ⟨0, _⟩ => show win0_0.index t (0 : Fin 2) * 5000 + 1 * p.val = n.val; rw [e0, hn]; omega
    | ⟨1, _⟩ => show win0_0.index t (1 : Fin 2) * 64 + 1 * k.val = k.val; rw [e1]; omega
  unfold iblk
  refine (read_blk0 t (V m c (Pipeline.arrRef spec0 0)) (ix2 p k)).trans ?_
  rw [hemb]
  exact congrFun (W_feat m c) (ix2 n k)

/-- The summed-neighbour block at point `t`, at `(p, k)`, is the summed neighbour features of node `5000·t + p`. -/
theorem nsum_block (c : Dev nD) (t : Fin cfg0.N) (p : Fin 5000) (k : Fin 64) (n : Fin 100000) (hn : n.val = t.val * 5000 + p.val) :
    (iblk m c 1 t : Vec Ideal S5000x64 .f32) (ix2 p k) = neighSum (m ((c : Thread nD τ).loc main_arg0)) (m ((c : Thread nD τ).loc main_arg1)) (m ((c : Thread nD τ).loc main_arg2)) (ix2 n k) := by
  obtain ⟨-, -, e0, e1, -⟩ := idx_facts t
  have hemb : ((cfg0.win 1).blk t).view.emb (ix2 p k) = ix2 n k := by
    funext a; apply Fin.ext
    match a with
    | ⟨0, _⟩ => show win0_1.index t (0 : Fin 2) * 5000 + 1 * p.val = n.val; rw [e0, hn]; omega
    | ⟨1, _⟩ => show win0_1.index t (1 : Fin 2) * 64 + 1 * k.val = k.val; rw [e1]; omega
  unfold iblk
  refine (read_blk1 t (V m c (Pipeline.arrRef spec0 1)) (ix2 p k)).trans ?_
  rw [hemb]
  exact congrFun (W_neighSum m c) (ix2 n k)

/-- The degree block at point `t`, at `(p, 0)`, is the in-degree of node `5000·t + p`. -/
theorem deg_block (c : Dev nD) (t : Fin cfg0.N) (p : Fin 5000) (n : Fin 100000) (hn : n.val = t.val * 5000 + p.val) :
    (iblk m c 2 t : Vec Ideal S5000x1 .f32) (ix2 p (0 : Fin 1)) = inDegree (m ((c : Thread nD τ).loc main_arg2)) (ix1 n) := by
  obtain ⟨-, -, -, -, e0, e1, -⟩ := idx_facts t
  have hemb : ((cfg0.win 2).blk t).view.emb (ix2 p (0 : Fin 1)) = ix2 n (0 : Fin 1) := by
    funext a; apply Fin.ext
    match a with
    | ⟨0, _⟩ => show win0_2.index t (0 : Fin 2) * 5000 + 1 * p.val = n.val; rw [e0, hn]; omega
    | ⟨1, _⟩ => show win0_2.index t (1 : Fin 2) * 1 + 1 * 0 = 0; rw [e1]
  unfold iblk
  refine (read_blk2 t (V m c (Pipeline.arrRef spec0 2)) (ix2 p (0 : Fin 1))).trans ?_
  rw [hemb]
  exact W_degColumn_apply m c n (0 : Fin 1)

/-- The first weight block at any point, at `(k, q)`, is the first weight matrix at `(q, k)`. -/
theorem wself_block (c : Dev nD) (t : Fin cfg0.N) (k q : Fin 64) :
    (iblk m c 3 t : Vec Ideal S64x64 .f32) (ix2 k q) = ((m ((c : Thread nD τ).loc main_arg3)) : S64x64.Idx → EReal) (ix2 q k) := by
  obtain ⟨-, -, -, -, -, -, e0, e1, -⟩ := idx_facts t
  have hemb : ((cfg0.win 3).blk t).view.emb (ix2 k q) = ix2 k q := by
    funext a; apply Fin.ext
    match a with
    | ⟨0, _⟩ => show win0_3.index t (0 : Fin 2) * 64 + 1 * k.val = k.val; rw [e0]; omega
    | ⟨1, _⟩ => show win0_3.index t (1 : Fin 2) * 64 + 1 * q.val = q.val; rw [e1]; omega
  unfold iblk
  refine (read_blk3 t (V m c (Pipeline.arrRef spec0 3)) (ix2 k q)).trans ?_
  rw [hemb]
  exact W_selfT_apply m c k q

/-- The second weight block at any point, at `(k, q)`, is the second weight matrix at `(q, k)`. -/
theorem wneigh_block (c : Dev nD) (t : Fin cfg0.N) (k q : Fin 64) :
    (iblk m c 4 t : Vec Ideal S64x64 .f32) (ix2 k q) = ((m ((c : Thread nD τ).loc main_arg4)) : S64x64.Idx → EReal) (ix2 q k) := by
  obtain ⟨-, -, -, -, -, -, -, -, e0, e1, -⟩ := idx_facts t
  have hemb : ((cfg0.win 4).blk t).view.emb (ix2 k q) = ix2 k q := by
    funext a; apply Fin.ext
    match a with
    | ⟨0, _⟩ => show win0_4.index t (0 : Fin 2) * 64 + 1 * k.val = k.val; rw [e0]; omega
    | ⟨1, _⟩ => show win0_4.index t (1 : Fin 2) * 64 + 1 * q.val = q.val; rw [e1]; omega
  unfold iblk
  refine (read_blk4 t (V m c (Pipeline.arrRef spec0 4)) (ix2 k q)).trans ?_
  rw [hemb]
  exact W_neighT_apply m c k q

/-- The bias block at any point, at `(0, q)`, is the bias at `q`. -/
theorem bias_block (c : Dev nD) (t : Fin cfg0.N) (q : Fin 64) :
    (iblk m c 5 t : Vec Ideal S1x64 .f32) (ix2 (0 : Fin 1) q) = ((m ((c : Thread nD τ).loc main_arg5)) : S64.Idx → EReal) (ix1 q) := by
  obtain ⟨-, -, -, -, -, -, -, -, -, -, e0, e1, -⟩ := idx_facts t
  have hemb : ((cfg0.win 5).blk t).view.emb (ix2 (0 : Fin 1) q) = ix2 (0 : Fin 1) q := by
    funext a; apply Fin.ext
    match a with
    | ⟨0, _⟩ => show win0_5.index t (0 : Fin 2) * 1 + 1 * 0 = 0; rw [e0]
    | ⟨1, _⟩ => show win0_5.index t (1 : Fin 2) * 64 + 1 * q.val = q.val; rw [e1]; omega
  unfold iblk
  refine (read_blk5 t (V m c (Pipeline.arrRef spec0 5)) (ix2 (0 : Fin 1) q)).trans ?_
  rw [hemb]
  exact W_biasRow_apply m c (0 : Fin 1) q

end Cert.KernelIdeal.Blocks

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«129284_j75101798138094_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.LibColumnBroadcast.lean ====
/-
  One column broadcast over many.

  A keepdims column `[a, 1]` broadcast to `[a, b]` holds, at `(p, c)`, the column's entry of row `p`: the operand's second
  axis is a unit axis, so the broadcast reads it at `0`, and the first axis is carried along.
-/
import Idealize.ShloMosaic.Lib.Pipeline.Value
import Idealize.ShloMosaic.Lib.ValueIdx

namespace Idealize.ShloMosaic.LibColumnBroadcast

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumnBroadcast
-- ==== Proof.SageSpec.lean ====
/-
  The value both programs compute: one layer of mean neighbourhood aggregation over a graph of 100000 nodes with 64
  features, followed by two linear maps and a bias.

  Given the node features `feat`, the summed neighbour features `nsum` (row `p`: the sum of the feature rows of the
  sources of the edges that end at `p`) and the in-degree `deg`, the entry for node `p` and output feature `q` is

      ( Σ_k feat(p,k) · Wself(q,k)  +  Σ_k ( nsum(p,k) / max(deg p, 1) ) · Wneigh(q,k) )  +  bias q ,

  the two weight matrices being stored output-feature-major, so that each product contracts their SECOND axis.
  The sums, products and the quotient are those of the extended reals; the `1` is the binary32 word of one, kept as a
  word because both programs carry the same word.
-/
import Idealize.ShloMosaic.PureOps.Ideal
import Idealize.ShloMosaic.Lib.ValueIdx

noncomputable section

open scoped BigOperators

namespace SageMean

open Idealize.ShloMosaic Idealize.ShloMosaic.ValueIdx

/-- The binary32 word of `1.0`, read as an extended real. -/
abbrev one : EReal := Ideal.ofBits .f32 0x3F800000#32

/-- The mean of the neighbours' feature `k` at node `p`: the summed feature over the in-degree, a node without
    incoming edges dividing by one. -/
def mean (nsum : (⟨2, ![100000, 64]⟩ : Shape).Idx → EReal) (deg : (⟨1, ![100000]⟩ : Shape).Idx → EReal)
    (p : Fin 100000) (k : Fin 64) : EReal :=
  Ideal.div (nsum (ix2 p k)) (max (deg (ix1 p)) one)

/-- The layer's entry for node `p` and output feature `q`. -/
def entry (feat nsum : (⟨2, ![100000, 64]⟩ : Shape).Idx → EReal) (deg : (⟨1, ![100000]⟩ : Shape).Idx → EReal)
    (wself wneigh : (⟨2, ![64, 64]⟩ : Shape).Idx → EReal) (bias : (⟨1, ![64]⟩ : Shape).Idx → EReal)
    (p : Fin 100000) (q : Fin 64) : EReal :=
  (∑ k : Fin 64, feat (ix2 p k) * wself (ix2 q k) + ∑ k : Fin 64, mean nsum deg p k * wneigh (ix2 q k)) + bias (ix1 q)

/-- The layer's whole result, index by index. -/
def layer (feat nsum : (⟨2, ![100000, 64]⟩ : Shape).Idx → EReal) (deg : (⟨1, ![100000]⟩ : Shape).Idx → EReal)
    (wself wneigh : (⟨2, ![64, 64]⟩ : Shape).Idx → EReal) (bias : (⟨1, ![64]⟩ : Shape).Idx → EReal) :
    (⟨2, ![100000, 64]⟩ : Shape).Idx → EReal :=
  fun i => entry feat nsum deg wself wneigh bias (i 0) (i 1)

theorem layer_ix2 (feat nsum : (⟨2, ![100000, 64]⟩ : Shape).Idx → EReal) (deg : (⟨1, ![100000]⟩ : Shape).Idx → EReal)
    (wself wneigh : (⟨2, ![64, 64]⟩ : Shape).Idx → EReal) (bias : (⟨1, ![64]⟩ : Shape).Idx → EReal)
    (p : Fin 100000) (q : Fin 64) :
    layer feat nsum deg wself wneigh bias (ix2 p q) = entry feat nsum deg wself wneigh bias p q := rfl

end SageMean

end
-- ==== Proof.BodyValue.lean ====
/-
  The kernel body's one stored value, read at an entry of its block.

  On a block of 5000 nodes the body holds the block's feature rows `x`, summed neighbour rows `s`, the degree column
  `d`, the two weight matrices already transposed (`a`, `b`: input feature first) and the bias row `r`, and stores

      ( x · a  +  ( s / max(d, 1) ) · b )  +  r ,

  the two products taken into zero accumulators.  At the exact instance a matrix product into zero is the plain sum over the
  contracted coordinate, the narrowing to bf16 before each product changes nothing, the degree column is spread along the
  rows and the bias row along the columns; so the entry `(p, q)` of the stored value is

      ( Σ_k x(p,k) · a(k,q)  +  Σ_k ( s(p,k) / max(d(p,0), 1) ) · b(k,q) )  +  r(0,q) .
-/
import proofs.«129284_j75101798138094_2_alg».proof.Proof.Gen.KernelIdeal.Skeleton
import proofs.«129284_j75101798138094_2_alg».proof.Proof.LibMatmul2
import proofs.«129284_j75101798138094_2_alg».proof.Proof.LibColumnBroadcast
import proofs.«129284_j75101798138094_2_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Body

open Cert.KernelIdeal Cert.KernelIdeal.Gen

/-- In the body's product the left operand's row is the result's row. -/
theorem dot_lhs_row (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- In the body's product the right operand's column is the result's column. -/
theorem dot_rhs_col (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A block's product into the zero accumulator, at `(p, q)`: the sum over the 64 input features. -/
theorem product_apply {φ₁ φ₂ : FTy} (x : FVec Ideal S5000x64 φ₁) (y : FVec Ideal S64x64 φ₂) (p : Fin 5000) (q : Fin 64) :
    matmul dot_S5000x64_S64x64_S5000x64_1_0_0_1_n_n none x y (constant (F := Ideal) S5000x64 .f32 0x00000000#32) (ix2 p q)
      = ∑ k : Fin 64, x (ix2 p k) * y (ix2 k q) :=
  LibMatmul2.matmul_zero_apply dot_S5000x64_S64x64_S5000x64_1_0_0_1_n_n rfl rfl rfl rfl dot_lhs_row dot_rhs_col none x y p q

/-- The stored value at `(p, q)`. -/
theorem stored_apply (d : Vec Ideal S5000x1 .f32) (s x : Vec Ideal S5000x64 .f32) (a b : Vec Ideal S64x64 .f32)
    (r : Vec Ideal S1x64 .f32) (p : Fin 5000) (q : Fin 64) :
    k0_pay1 d s x a b r (ix2 p q)
      = (∑ k : Fin 64, x (ix2 p k) * a (ix2 k q)
          + ∑ k : Fin 64, Ideal.div (s (ix2 p k)) (max (d (ix2 p (0 : Fin 1))) SageMean.one) * b (ix2 k q))
        + r (ix2 (0 : Fin 1) q) := by
  unfold k0_pay1
  simp only [shapeCast_self]
  refine congrArg₂ (· + ·) (congrArg₂ (· + ·) ?_ ?_) ?_
  · exact product_apply _ _ p q
  · refine (product_apply _ _ p q).trans (Finset.sum_congr rfl fun k _ => congrArg (· * b (ix2 k q)) ?_)
    refine congrArg (Ideal.div (s (ix2 p k))) ?_
    exact LibColumnBroadcast.broadcastTo_a1_ab_apply _ _ p k
  · exact broadcastTo_1b_ab_apply _ _ p q

end Cert.KernelIdeal.Body

end
-- ==== Proof.WholeArray.lean ====
/-
  From the blocks to the whole array: what the kernel's result array holds after the run.

  At point `t` the body's stored value at the block entry `(p, q)` is, by the body's value at an entry and the blocks as
  entries of their arrays, the layer's entry for node `5000·t + p` and output feature `q`.  The point writes its block back
  to rows `5000·t …` of the result, so it writes those rows of the layer of the arguments; the 20 row blocks cover every
  node (node `n` is in block `n / 5000`), hence the array ends holding the layer.
-/
import proofs.«129284_j75101798138094_2_alg».proof.Proof.Gen.KernelIdeal.Value
import proofs.«129284_j75101798138094_2_alg».proof.Proof.BlockReads
import proofs.«129284_j75101798138094_2_alg».proof.Proof.BodyValue
import proofs.«129284_j75101798138094_2_alg».proof.Proof.SageSpec
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.KernelIdeal.Entry Cert.KernelIdeal.Blocks

variable (m : (ℓ : Loc nD τ sig) → Buf (Elt Ideal) ℓ) (ρ : Dev nD → PrngReg)

theorem hz : (![0, 0] : Fin 2 → Nat) = fun _ => 0 := funext fun a => by fin_cases a <;> rfl

/-- The layer of the program's arguments, the neighbour sums and in-degrees taken as the host operations compute them. -/
def result (c : Dev nD) : S100000x64.Idx → EReal :=
  SageMean.layer (m ((c : Thread nD τ).loc main_arg0)) (neighSum (m ((c : Thread nD τ).loc main_arg0)) (m ((c : Thread nD τ).loc main_arg1)) (m ((c : Thread nD τ).loc main_arg2))) (inDegree (m ((c : Thread nD τ).loc main_arg2))) (m ((c : Thread nD τ).loc main_arg3)) (m ((c : Thread nD τ).loc main_arg4)) (m ((c : Thread nD τ).loc main_arg5))

/-- The body's value on the blocks of point `t`, at `(p, q)`, is the layer at node `5000·t + p` and feature `q`. -/
theorem stored_block (c : Dev nD) (t : Fin cfg0.N) (p : Fin 5000) (q : Fin 64) (n : Fin 100000) (hn : n.val = t.val * 5000 + p.val) :
    k0_pay1 (iblk m c 2 t) (iblk m c 1 t) (iblk m c 0 t) (iblk m c 3 t) (iblk m c 4 t) (iblk m c 5 t) (ix2 p q) = result m c (ix2 n q) := by
  refine (Body.stored_apply (iblk m c 2 t) (iblk m c 1 t) (iblk m c 0 t) (iblk m c 3 t) (iblk m c 4 t) (iblk m c 5 t) p q).trans ?_
  show _ = SageMean.entry _ _ _ _ _ _ n q
  unfold SageMean.entry SageMean.mean
  refine congrArg₂ (· + ·) (congrArg₂ (· + ·) (Finset.sum_congr rfl fun k _ => ?_) (Finset.sum_congr rfl fun k _ => ?_)) ?_
  · exact congrArg₂ (· * ·) (feat_block m c t p k n hn) (wself_block m c t k q)
  · exact congrArg₂ (· * ·) (congrArg₂ Ideal.div (nsum_block m c t p k n hn) (congrArg (max · SageMean.one) (deg_block m c t p n hn)))
      (wneigh_block m c t k q)
  · exact bias_block m c t q

/-- The same at a block entry `y` and the array entry it is written to. -/
theorem stored_entry (c : Dev nD) (t : Fin cfg0.N) (y : S5000x64.Idx) :
    k0_pay1 (iblk m c 2 t) (iblk m c 1 t) (iblk m c 0 t) (iblk m c 3 t) (iblk m c 4 t) (iblk m c 5 t) y = result m c (((cfg0.win 6).blk t).view.emb y) := by
  obtain ⟨-, -, -, -, -, -, -, -, -, -, -, -, e0, e1⟩ := idx_facts t
  have hN : cfg0.N = 20 := N_0
  have ht : t.val < 20 := by have := t.isLt; omega
  have hy0 : (y 0).val < 5000 := (y 0).isLt
  have hemb : ((cfg0.win 6).blk t).view.emb y = ix2 (⟨t.val * 5000 + (y 0).val, by omega⟩ : Fin 100000) (y 1) := by
    funext a; apply Fin.ext
    match a with
    | ⟨0, _⟩ => show win0_6.index t (0 : Fin 2) * 5000 + 1 * (y 0).val = t.val * 5000 + (y 0).val; rw [e0]; omega
    | ⟨1, _⟩ => show win0_6.index t (1 : Fin 2) * 64 + 1 * (y 1).val = (y 1).val; rw [e1]; omega
  rw [hemb]
  exact (congrArg (k0_pay1 (iblk m c 2 t) (iblk m c 1 t) (iblk m c 0 t) (iblk m c 3 t) (iblk m c 4 t) (iblk m c 5 t)) (eq_ix2 y)).trans
    (stored_block m c t (y 0) (y 1) ⟨t.val * 5000 + (y 0).val, by omega⟩ rfl)

/-- WHAT POINT `t` WRITES BACK is block `t` of the layer of the arguments. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero hz]
  simp only [View.ld_unit_zero (S := S5000x1) hz, View.ld_unit_zero (S := S5000x64) hz, View.ld_unit_zero (S := S64x64) hz,
    View.ld_unit_zero (S := S1x64) hz]
  funext y
  exact stored_entry m c t y

/-- An index of the result array is in point `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v18).slice (win0_6.rect t)).set ↔ _
  rw [View.set_slice_whole, Rect.mem_set_unit]
  exact Iff.rfl

/-- Every node is in some point's row block: node `n` in block `n / 5000`. -/
theorem covered (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 64 ≤ (i 1).val ∧ (i 1).val < win0_6.index t (1 : Fin 2) * 64 + 64; rw [e1]; omega

/-- THE RESULT ARRAY after the run is the layer of the arguments. -/
theorem final (c : Dev nD) : (dats m 0 c).arrAt 6 cfg0.N = result m c :=
  (dats m 0 c).arrAt_eq_of_cover 6 (result m c) (fun t _ => flushed_eq m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.RefValue.lean ====
/-
  The reference's result is the layer.

  The reference computes the summed neighbour features and the in-degrees (left unopened here: the two sums over
  edges stay as the program's terms), takes `max(deg, 1)` and spreads it along each row, divides, transposes each weight
  matrix and contracts it with the features, resp. the means, over the 64 input features, adds the two products and then the
  bias spread along the rows.  Read at `(p, q)`: a transposed matrix at `(k, q)` is the matrix at `(q, k)`, a spread
  column at `(p, k)` is the column's entry `p`, a spread row at `(p, q)` is the row's entry `q`, and each product is the
  sum over `k`; that is the layer's entry, term by term.
-/
import proofs.«129284_j75101798138094_2_alg».proof.Proof.Gen.ReferenceIdeal.Read
import proofs.«129284_j75101798138094_2_alg».proof.Proof.SageSpec
import Idealize.ShloMosaic.Lib.ValueIdx
import Idealize.ShloMosaic.PureOps.Ideal

noncomputable section

open scoped BigOperators
open Idealize.ShloMosaic Idealize.ShloMosaic.ValueIdx

namespace Cert.ReferenceIdeal.RefValue

open Cert.ReferenceIdeal Cert.ReferenceIdeal.Gen Cert.ReferenceIdeal.Read

/-- The reference's last stage is the layer of the arguments, of the summed neighbour features and of the in-degrees as the
    reference's own stages compute them. -/
theorem result_eq (x0 : (⟨S100000x64, .f32⟩ : BufTy).Contents (Elt Ideal)) (x1 x2 : (⟨S1250000, .i32⟩ : BufTy).Contents (Elt Ideal))
    (x3 x4 : (⟨S64x64, .f32⟩ : BufTy).Contents (Elt Ideal)) (x5 : (⟨S64, .f32⟩ : BufTy).Contents (Elt Ideal)) :
    val_main_v26 (F := Ideal) x0 x1 x2 x3 x4 x5
      = SageMean.layer x0 (val_main_v9 (F := Ideal) x0 x1 x2) (val_main_v13 (F := Ideal) x2) x3 x4 x5 := by
  funext i
  have eL : ∀ k : Fin 64, lidx_main_v20 i k = ix2 (i 0) k := fun k => funext fun a => Fin.ext (by
    match a with | ⟨0, _⟩ => rfl | ⟨1, _⟩ => rfl)
  have eR : ∀ k : Fin 64, idx_main_v19 (ridx_main_v20 i k) = ix2 (i 1) k := fun k => funext fun a => Fin.ext (by
    match a with | ⟨0, _⟩ => rfl | ⟨1, _⟩ => rfl)
  have eL' : ∀ k : Fin 64, lidx_main_v22 i k = ix2 (i 0) k := fun k => funext fun a => Fin.ext (by
    match a with | ⟨0, _⟩ => rfl | ⟨1, _⟩ => rfl)
  have eR' : ∀ k : Fin 64, idx_main_v21 (ridx_main_v22 i k) = ix2 (i 1) k := fun k => funext fun a => Fin.ext (by
    match a with | ⟨0, _⟩ => rfl | ⟨1, _⟩ => rfl)
  have eD : ∀ k : Fin 64, idx_main_v16 (idx_main_v17 (ix2 (i 0) k)) = ix1 (i 0) := fun k => funext fun a => Fin.ext (by
    match a with | ⟨0, _⟩ => rfl)
  have eB : idx_main_v24 (idx_main_v25 i) = ix1 (i 1) := funext fun a => Fin.ext (by
    match a with | ⟨0, _⟩ => rfl)
  rw [val_main_v26_apply, val_main_v23_apply, val_main_v20_apply, val_main_v22_apply, val_main_v25_apply, val_main_v24_apply, eB]
  show _ = SageMean.entry _ _ _ _ _ _ (i 0) (i 1)
  unfold SageMean.entry SageMean.mean
  refine congrArg₂ (· + ·) (congrArg₂ (· + ·) (Finset.sum_congr rfl fun k _ => ?_) (Finset.sum_congr rfl fun k _ => ?_)) rfl
  · exact congrArg₂ (· * ·) (congrArg x0 (eL k)) ((val_main_v19_apply x3 _).trans (congrArg x3 (eR k)))
  · refine congrArg₂ (· * ·) ?_ ((val_main_v21_apply x4 _).trans (congrArg x4 (eR' k)))
    refine (congrArg (val_main_v18 (F := Ideal) x0 x1 x2) (eL' k)).trans ((val_main_v18_apply x0 x1 x2 _).trans ?_)
    refine congrArg (Ideal.div (val_main_v9 (F := Ideal) x0 x1 x2 (ix2 (i 0) k))) ?_
    refine (val_main_v17_apply x2 _).trans ((val_main_v16_apply x2 _).trans ((congrArg (val_main_v15 (F := Ideal) x2) (eD k)).trans ?_))
    refine (val_main_v15_apply x2 _).trans (congrArg (max (val_main_v13 (F := Ideal) x2 (ix1 (i 0)))) ?_)
    exact (val_main_v14_apply _).trans (val_main_cst_3_apply _)

end Cert.ReferenceIdeal.RefValue

end
-- ==== Proof.lean ====
/-
  The kernel and the reference compute one function: a layer of mean neighbourhood aggregation.

  Both programs begin with the same host operations on the same arguments: the feature row of every edge's source is
  gathered, the rows are added up per destination node (the summed neighbour features) and ones are added up per
  destination node (the in-degrees).  From there the reference divides each summed row by `max(deg, 1)`, multiplies the
  features and the means by the two transposed weight matrices, adds the products and the bias.  The kernel does the same
  on blocks of 5000 nodes: it takes the maximum with one and the quotient inside the body, forms the two products into zero
  accumulators after narrowing to bf16 (the identity at the exact instance), and adds the bias row.  Index by index both
  results are

      ( Σ_k feat(p,k) · Wself(q,k)  +  Σ_k ( nsum(p,k) / max(deg p, 1) ) · Wneigh(q,k) )  +  bias q

  on the extended reals, with the sums in the same order and the same association; no law beyond re-indexing is used,
  so the inputs' finiteness is never opened.  The gather and the two sums over edges are the same terms on both sides
  and are never unfolded.  The idealization rewrote no operation, so there is nothing to preserve.
-/
import proofs.«129284_j75101798138094_2_alg».proof.Defs
import proofs.«129284_j75101798138094_2_alg».proof.Proof.Gen.Kernel
import proofs.«129284_j75101798138094_2_alg».proof.Proof.Gen.Kernel.Skeleton
import proofs.«129284_j75101798138094_2_alg».proof.Proof.Gen.Kernel.Launch
import proofs.«129284_j75101798138094_2_alg».proof.Proof.Gen.Kernel.Points
import proofs.«129284_j75101798138094_2_alg».proof.Proof.Gen.Kernel.Frame
import proofs.«129284_j75101798138094_2_alg».proof.Proof.Gen.KernelIdeal
import proofs.«129284_j75101798138094_2_alg».proof.Proof.Gen.KernelIdeal.Skeleton
import proofs.«129284_j75101798138094_2_alg».proof.Proof.Gen.KernelIdeal.Launch
import proofs.«129284_j75101798138094_2_alg».proof.Proof.Gen.KernelIdeal.Points
import proofs.«129284_j75101798138094_2_alg».proof.Proof.Gen.KernelIdeal.Frame
import proofs.«129284_j75101798138094_2_alg».proof.Proof.Gen.ReferenceIdeal
import proofs.«129284_j75101798138094_2_alg».proof.Proof.Gen.Pre_finite_inputs
import proofs.«129284_j75101798138094_2_alg».proof.Proof.Gen.KernelIdeal.Value
import proofs.«129284_j75101798138094_2_alg».proof.Proof.Gen.ReferenceIdeal.Run
import proofs.«129284_j75101798138094_2_alg».proof.Proof.Gen.ReferenceIdeal.Read
import proofs.«129284_j75101798138094_2_alg».proof.Proof.WholeArray
import proofs.«129284_j75101798138094_2_alg».proof.Proof.RefValue
import Idealize.ShloMosaic.Adequacy
import Idealize.ShloMosaic.Init

noncomputable section

namespace Cert.Proof

open Idealize.ShloMosaic Idealize.ShloMosaic.TcCoe Idealize.SL.Sem

/-- The kernel's summed neighbour features are the reference's: the same gather and the same sum over edges. -/
theorem neighSum_eq (x0 : Cert.KernelIdeal.S100000x64.Idx → EReal) (x1 x2 : Cert.KernelIdeal.S1250000.Idx → BitVec 32) :
    Cert.KernelIdeal.Entry.neighSum x0 x1 x2 = Cert.ReferenceIdeal.Read.val_main_v9 (F := Ideal) x0 x1 x2 := rfl

/-- The kernel's in-degrees are the reference's: the same sum of ones over edges. -/
theorem inDegree_eq (x2 : Cert.KernelIdeal.S1250000.Idx → BitVec 32) :
    Cert.KernelIdeal.Entry.inDegree x2 = Cert.ReferenceIdeal.Read.val_main_v13 (F := Ideal) x2 := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel's result array ends at the layer of the arguments (the blocks
    put together) and the reference's at its last stage, which is the layer of the same arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v26_eq, Cert.ReferenceIdeal.RefValue.result_eq, a0, a1, a2, a3, a4, a5,
    ← neighSum_eq, ← inDegree_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
